-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x131072x64 : Shape := ⟨3, ![8, 131072, 64]⟩
abbrev S8x256 : Shape := ⟨2, ![8, 256]⟩
abbrev S64x64 : Shape := ⟨2, ![64, 64]⟩
abbrev S64 : Shape := ⟨1, ![64]⟩
abbrev S64x256 : Shape := ⟨2, ![64, 256]⟩
abbrev S_ : Shape := ⟨0, ![]⟩

class Facts : Prop where
  bcast_S_S8x131072x64 : S_.BroadcastsInDim S8x131072x64 (![] : Fin 0 → Fin S8x131072x64.rank)
  reducesTo_S8x131072x64_S_d0_1_2 : S8x131072x64.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg4 : FVec F S64x256 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S8x131072x64 .f32) (main_arg1 : FVec F S8x256 .f32) (main_arg2 : FVec F S64x64 .f32) (main_arg3 : FVec F S64 .f32) (main_arg4 : FVec F S64x256 .f32) (main_arg5 : FVec F S64 .f32) : IVec S_ 1 :=
  let main_v0 : FVec F S8x131072x64 .f32 := Host.absf main_arg0
  let main_cst : FVec F S_ .f32 := constant S_ .f32 0x7F800000#32
  let main_v1 : FVec F S8x131072x64 .f32 := broadcastInDim S8x131072x64 ![] bcast_S_S8x131072x64 main_cst
  let main_v2 : IVec S8x131072x64 1 := cmpf .olt main_v0 main_v1
  let main_c : IVec S_ 1 := constantI S_ 1 1#1
  let main_v3 : IVec S_ 1 := (fun x v => Host.reduce IntOp.andi x v reducesTo_S8x131072x64_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8x131072x64 : Shape := ⟨3, ![8, 131072, 64]⟩
abbrev S8x256 : Shape := ⟨2, ![8, 256]⟩
abbrev S64x64 : Shape := ⟨2, ![64, 64]⟩
abbrev S64 : Shape := ⟨1, ![64]⟩
abbrev S64x256 : Shape := ⟨2, ![64, 256]⟩
abbrev S_ : Shape := ⟨0, ![]⟩
abbrev S256x64 : Shape := ⟨2, ![256, 64]⟩
abbrev S8x64 : Shape := ⟨2, ![8, 64]⟩
abbrev S1x64 : Shape := ⟨2, ![1, 64]⟩
abbrev S1x64x64 : Shape := ⟨3, ![1, 64, 64]⟩
abbrev S8x1x64 : Shape := ⟨3, ![8, 1, 64]⟩
abbrev S8x64x64 : Shape := ⟨3, ![8, 64, 64]⟩
abbrev S8x64x1 : Shape := ⟨3, ![8, 64, 1]⟩
abbrev S8x64x128 : Shape := ⟨3, ![8, 64, 128]⟩
abbrev S8x128x128 : Shape := ⟨3, ![8, 128, 128]⟩
abbrev S128 : Shape := ⟨1, ![128]⟩
abbrev S1x128 : Shape := ⟨2, ![1, 128]⟩
abbrev S8x65536x128 : Shape := ⟨3, ![8, 65536, 128]⟩
abbrev S1x16384x128 : Shape := ⟨3, ![1, 16384, 128]⟩
abbrev S1x128x128 : Shape := ⟨3, ![1, 128, 128]⟩
abbrev S16384x128 : Shape := ⟨2, ![16384, 128]⟩
abbrev S128x128 : Shape := ⟨2, ![128, 128]⟩

abbrev nBuf : Space → Nat
  | .hbm => 46
  | .vmem => 7
  | .smem => 0
  | _ => 0

abbrev bufTy : (tb : Table) → Fin (tcTables nBuf tb) → BufTy
  | .hbm, ⟨0, _⟩ => ⟨S8x131072x64, .f32⟩
  | .hbm, ⟨1, _⟩ => ⟨S8x256, .f32⟩
  | .hbm, ⟨2, _⟩ => ⟨S64x64, .f32⟩
  | .hbm, ⟨3, _⟩ => ⟨S64, .f32⟩
  | .hbm, ⟨4, _⟩ => ⟨S64x256, .f32⟩
  | .hbm, ⟨5, _⟩ => ⟨S64, .f32⟩
  | .hbm, ⟨6, _⟩ => ⟨S_, .f32⟩
  | .hbm, ⟨7, _⟩ => ⟨S64x256, .f32⟩
  | .hbm, ⟨8, _⟩ => ⟨S64x256, .f32⟩
  | .hbm, ⟨9, _⟩ => ⟨S256x64, .f32⟩
  | .hbm, ⟨10, _⟩ => ⟨S8x64, .f32⟩
  | .hbm, ⟨11, _⟩ => ⟨S1x64, .f32⟩
  | .hbm, ⟨12, _⟩ => ⟨S8x64, .f32⟩
  | .hbm, ⟨13, _⟩ => ⟨S8x64, .f32⟩
  | .hbm, ⟨14, _⟩ => ⟨S_, .f32⟩
  | .hbm, ⟨15, _⟩ => ⟨S8x64, .f32⟩
  | .hbm, ⟨16, _⟩ => ⟨S8x64, .f32⟩
  | .hbm, ⟨17, _⟩ => ⟨S1x64x64, .f32⟩
  | .hbm, ⟨18, _⟩ => ⟨S_, .f32⟩
  | .hbm, ⟨19, _⟩ => ⟨S1x64x64, .f32⟩
  | .hbm, ⟨20, _⟩ => ⟨S1x64x64, .f32⟩
  | .hbm, ⟨21, _⟩ => ⟨S8x1x64, .f32⟩
  | .hbm, ⟨22, _⟩ => ⟨S8x64x64, .f32⟩
  | .hbm, ⟨23, _⟩ => ⟨S8x64x64, .f32⟩
  | .hbm, ⟨24, _⟩ => ⟨S8x64x64, .f32⟩
  | .hbm, ⟨25, _⟩ => ⟨S8x64x64, .f32⟩
  | .hbm, ⟨26, _⟩ => ⟨S_, .f32⟩
  | .hbm, ⟨27, _⟩ => ⟨S8x64, .f32⟩
  | .hbm, ⟨28, _⟩ => ⟨S_, .f32⟩
  | .hbm, ⟨29, _⟩ => ⟨S8x64, .f32⟩
  | .hbm, ⟨30, _⟩ => ⟨S8x64, .f32⟩
  | .hbm, ⟨31, _⟩ => ⟨S8x64, .f32⟩
  | .hbm, ⟨32, _⟩ => ⟨S8x64x1, .f32⟩
  | .hbm, ⟨33, _⟩ => ⟨S8x64x64, .f32⟩
  | .hbm, ⟨34, _⟩ => ⟨S8x64x64, .f32⟩
  | .hbm, ⟨35, _⟩ => ⟨S8x64x64, .f32⟩
  | .hbm, ⟨36, _⟩ => ⟨S_, .f32⟩
  | .hbm, ⟨37, _⟩ => ⟨S8x64x64, .f32⟩
  | .hbm, ⟨38, _⟩ => ⟨S8x64x128, .f32⟩
  | .hbm, ⟨39, _⟩ => ⟨S8x64x128, .f32⟩
  | .hbm, ⟨40, _⟩ => ⟨S8x128x128, .f32⟩
  | .hbm, ⟨41, _⟩ => ⟨S128, .f32⟩
  | .hbm, ⟨42, _⟩ => ⟨S1x128, .f32⟩
  | .hbm, ⟨43, _⟩ => ⟨S8x65536x128, .f32⟩
  | .hbm, ⟨44, _⟩ => ⟨S8x65536x128, .f32⟩
  | .hbm, ⟨45, _⟩ => ⟨S8x131072x64, .f32⟩
  | .local _ .vmem, ⟨0, _⟩ => ⟨S1x16384x128, .f32⟩
  | .local _ .vmem, ⟨1, _⟩ => ⟨S1x16384x128, .f32⟩
  | .local _ .vmem, ⟨2, _⟩ => ⟨S1x128x128, .f32⟩
  | .local _ .vmem, ⟨3, _⟩ => ⟨S1x128x128, .f32⟩
  | .local _ .vmem, ⟨4, _⟩ => ⟨S1x128, .f32⟩
  | .local _ .vmem, ⟨5, _⟩ => ⟨S1x16384x128, .f32⟩
  | .local _ .vmem, ⟨6, _⟩ => ⟨S1x16384x128, .f32⟩
  | _, _ => ⟨S8x131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64x256 : S_.BroadcastsInDim S64x256 (![] : Fin 0 → Fin S64x256.rank)
  transposes_S64x256_S256x64_1_0 : S64x256.Transposes [1, 0] S256x64
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S64x64_S1x64x64_1_2 : S64x64.BroadcastsInDim S1x64x64 (![1, 2] : Fin 2 → Fin S1x64x64.rank)
  bcast_S_S1x64x64 : S_.BroadcastsInDim S1x64x64 (![] : Fin 0 → Fin S1x64x64.rank)
  bcast_S8x64_S8x1x64_0_2 : S8x64.BroadcastsInDim S8x1x64 (![0, 2] : Fin 2 → Fin S8x1x64.rank)
  bcast_S1x64x64_S8x64x64_0_1_2 : S1x64x64.BroadcastsInDim S8x64x64 (![0, 1, 2] : Fin 3 → Fin S8x64x64.rank)
  bcast_S8x1x64_S8x64x64_0_1_2 : S8x1x64.BroadcastsInDim S8x64x64 (![0, 1, 2] : Fin 3 → Fin S8x64x64.rank)
  reducesTo_S8x64x64_S8x64_d2 : S8x64x64.ReducesTo [2] S8x64
  h_S_ : 0 < S_.numel
  bcast_S8x64_S8x64x1_0_1 : S8x64.BroadcastsInDim S8x64x1 (![0, 1] : Fin 2 → Fin S8x64x1.rank)
  bcast_S8x64x1_S8x64x64_0_1_2 : S8x64x1.BroadcastsInDim S8x64x64 (![0, 1, 2] : Fin 3 → Fin S8x64x64.rank)
  transposes_S8x64x64_S8x64x64_0_2_1 : S8x64x64.Transposes [0, 2, 1] S8x64x64
  bcast_S_S8x64x64 : S_.BroadcastsInDim S8x64x64 (![] : Fin 0 → Fin S8x64x64.rank)
  concatenates_S8x64x64_S8x64x64_S8x64x128_d2 : Shape.Concatenates [S8x64x64, S8x64x64] S8x64x128 2
  concatenates_S8x64x128_S8x64x128_S8x128x128_d1 : Shape.Concatenates [S8x64x128, S8x64x128] S8x128x128 1
  concatenates_S64_S64_S128_d0 : Shape.Concatenates [S64, S64] S128 0
  shapeCasts_S128_S1x128 : S128.ShapeCasts S1x128
  shapeCasts_S8x131072x64_S8x65536x128 : S8x131072x64.ShapeCasts S8x65536x128
  inb_S1x16384x128_S1x16384x128_0_0_0 : ∀ a, (![0, 0, 0] : Fin 3 → Nat) a + S1x16384x128.size a ≤ S1x16384x128.size a
  h_S1x16384x128 : 0 < S1x16384x128.numel
  shapeCasts_S1x16384x128_S16384x128 : S1x16384x128.ShapeCasts S16384x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  shapeCasts_S16384x128_S1x16384x128 : S16384x128.ShapeCasts S1x16384x128
  shapeCasts_S8x65536x128_S8x131072x64 : S8x65536x128.ShapeCasts S8x131072x64
  dot_S8x256_S256x64_S8x64_1_0_0_1_n_n_wf : DotDims.WF S8x256 S256x64 S8x64 [1] [0] [0] [1] [] []
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x128.size a ≤ S8x65536x128.size a
  hwx0_0 : ∀ i : grid0.Coords, EltTy.bits .f32 = 32 ∨ (Rect.block (s := S8x65536x128) S1x16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .f32 = 32 ∨ (Rect.block (s := S8x128x128) S1x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16384x128.size a ≤ S8x65536x128.size a
  hwx0_3 : ∀ i : grid0.Coords, EltTy.bits .f32 = 32 ∨ (Rect.block (s := S8x65536x128) S1x16384x128.size (cc0_transform_3 i) (hinb0_3 i)).WholeWords (EltTy.packing .f32)

variable [Facts₀]

def dot_S8x256_S256x64_S8x64_1_0_0_1_n_n : DotDims S8x256 S256x64 S8x64 where
  lhsContracting := [1]
  rhsContracting := [0]
  lhsNonContracting := [0]
  rhsNonContracting := [1]
  lhsBatch := []
  rhsBatch := []
  wf := dot_S8x256_S256x64_S8x64_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v31) S1x16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x131072x64 : Shape := ⟨3, ![8, 131072, 64]⟩
abbrev S8x256 : Shape := ⟨2, ![8, 256]⟩
abbrev S64x64 : Shape := ⟨2, ![64, 64]⟩
abbrev S64 : Shape := ⟨1, ![64]⟩
abbrev S64x256 : Shape := ⟨2, ![64, 256]⟩
abbrev S_ : Shape := ⟨0, ![]⟩
abbrev S256x64 : Shape := ⟨2, ![256, 64]⟩
abbrev S8x64 : Shape := ⟨2, ![8, 64]⟩
abbrev S1x64 : Shape := ⟨2, ![1, 64]⟩
abbrev S1x64x64 : Shape := ⟨3, ![1, 64, 64]⟩
abbrev S8x1x64 : Shape := ⟨3, ![8, 1, 64]⟩
abbrev S8x64x64 : Shape := ⟨3, ![8, 64, 64]⟩
abbrev S8x64x1 : Shape := ⟨3, ![8, 64, 1]⟩
abbrev S1x1x64 : Shape := ⟨3, ![1, 1, 64]⟩

abbrev nBuf : Space → Nat
  | .hbm => 39
  | .vmem => 0
  | .smem => 0
  | _ => 0

abbrev bufTy : (tb : Table) → Fin (tcTables nBuf tb) → BufTy
  | .hbm, ⟨0, _⟩ => ⟨S8x131072x64, .f32⟩
  | .hbm, ⟨1, _⟩ => ⟨S8x256, .f32⟩
  | .hbm, ⟨2, _⟩ => ⟨S64x64, .f32⟩
  | .hbm, ⟨3, _⟩ => ⟨S64, .f32⟩
  | .hbm, ⟨4, _⟩ => ⟨S64x256, .f32⟩
  | .hbm, ⟨5, _⟩ => ⟨S64, .f32⟩
  | .hbm, ⟨6, _⟩ => ⟨S_, .f32⟩
  | .hbm, ⟨7, _⟩ => ⟨S64x256, .f32⟩
  | .hbm, ⟨8, _⟩ => ⟨S64x256, .f32⟩
  | .hbm, ⟨9, _⟩ => ⟨S256x64, .f32⟩
  | .hbm, ⟨10, _⟩ => ⟨S8x64, .f32⟩
  | .hbm, ⟨11, _⟩ => ⟨S1x64, .f32⟩
  | .hbm, ⟨12, _⟩ => ⟨S8x64, .f32⟩
  | .hbm, ⟨13, _⟩ => ⟨S8x64, .f32⟩
  | .hbm, ⟨14, _⟩ => ⟨S_, .f32⟩
  | .hbm, ⟨15, _⟩ => ⟨S8x64, .f32⟩
  | .hbm, ⟨16, _⟩ => ⟨S8x64, .f32⟩
  | .hbm, ⟨17, _⟩ => ⟨S1x64x64, .f32⟩
  | .hbm, ⟨18, _⟩ => ⟨S_, .f32⟩
  | .hbm, ⟨19, _⟩ => ⟨S1x64x64, .f32⟩
  | .hbm, ⟨20, _⟩ => ⟨S1x64x64, .f32⟩
  | .hbm, ⟨21, _⟩ => ⟨S8x1x64, .f32⟩
  | .hbm, ⟨22, _⟩ => ⟨S8x64x64, .f32⟩
  | .hbm, ⟨23, _⟩ => ⟨S8x64x64, .f32⟩
  | .hbm, ⟨24, _⟩ => ⟨S8x64x64, .f32⟩
  | .hbm, ⟨25, _⟩ => ⟨S8x64x64, .f32⟩
  | .hbm, ⟨26, _⟩ => ⟨S_, .f32⟩
  | .hbm, ⟨27, _⟩ => ⟨S8x64, .f32⟩
  | .hbm, ⟨28, _⟩ => ⟨S_, .f32⟩
  | .hbm, ⟨29, _⟩ => ⟨S8x64, .f32⟩
  | .hbm, ⟨30, _⟩ => ⟨S8x64, .f32⟩
  | .hbm, ⟨31, _⟩ => ⟨S8x64, .f32⟩
  | .hbm, ⟨32, _⟩ => ⟨S8x64x1, .f32⟩
  | .hbm, ⟨33, _⟩ => ⟨S8x64x64, .f32⟩
  | .hbm, ⟨34, _⟩ => ⟨S8x64x64, .f32⟩
  | .hbm, ⟨35, _⟩ => ⟨S8x131072x64, .f32⟩
  | .hbm, ⟨36, _⟩ => ⟨S1x1x64, .f32⟩
  | .hbm, ⟨37, _⟩ => ⟨S8x131072x64, .f32⟩
  | .hbm, ⟨38, _⟩ => ⟨S8x131072x64, .f32⟩
  | _, _ => ⟨S8x131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S_S64x256 : S_.BroadcastsInDim S64x256 (![] : Fin 0 → Fin S64x256.rank)
  transposes_S64x256_S256x64_1_0 : S64x256.Transposes [1, 0] S256x64
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S64x64_S1x64x64_1_2 : S64x64.BroadcastsInDim S1x64x64 (![1, 2] : Fin 2 → Fin S1x64x64.rank)
  bcast_S_S1x64x64 : S_.BroadcastsInDim S1x64x64 (![] : Fin 0 → Fin S1x64x64.rank)
  bcast_S8x64_S8x1x64_0_2 : S8x64.BroadcastsInDim S8x1x64 (![0, 2] : Fin 2 → Fin S8x1x64.rank)
  bcast_S1x64x64_S8x64x64_0_1_2 : S1x64x64.BroadcastsInDim S8x64x64 (![0, 1, 2] : Fin 3 → Fin S8x64x64.rank)
  bcast_S8x1x64_S8x64x64_0_1_2 : S8x1x64.BroadcastsInDim S8x64x64 (![0, 1, 2] : Fin 3 → Fin S8x64x64.rank)
  reducesTo_S8x64x64_S8x64_d2 : S8x64x64.ReducesTo [2] S8x64
  h_S_ : 0 < S_.numel
  bcast_S8x64_S8x64x1_0_1 : S8x64.BroadcastsInDim S8x64x1 (![0, 1] : Fin 2 → Fin S8x64x1.rank)
  bcast_S8x64x1_S8x64x64_0_1_2 : S8x64x1.BroadcastsInDim S8x64x64 (![0, 1, 2] : Fin 3 → Fin S8x64x64.rank)
  bcast_S64_S1x1x64_2 : S64.BroadcastsInDim S1x1x64 (![2] : Fin 1 → Fin S1x1x64.rank)
  bcast_S1x1x64_S8x131072x64_0_1_2 : S1x1x64.BroadcastsInDim S8x131072x64 (![0, 1, 2] : Fin 3 → Fin S8x131072x64.rank)
  dot_S8x256_S256x64_S8x64_1_0_0_1_n_n_wf : DotDims.WF S8x256 S256x64 S8x64 [1] [0] [0] [1] [] []
  dot_S8x131072x64_S8x64x64_S8x131072x64_2_2_1_1_0_0_wf : DotDims.WF S8x131072x64 S8x64x64 S8x131072x64 [2] [2] [1] [1] [0] [0]

variable [Facts₀]

def dot_S8x256_S256x64_S8x64_1_0_0_1_n_n : DotDims S8x256 S256x64 S8x64 where
  lhsContracting := [1]
  rhsContracting := [0]
  lhsNonContracting := [0]
  rhsNonContracting := [1]
  lhsBatch := []
  rhsBatch := []
  wf := dot_S8x256_S256x64_S8x64_1_0_0_1_n_n_wf
def dot_S8x131072x64_S8x64x64_S8x131072x64_2_2_1_1_0_0 : DotDims S8x131072x64 S8x64x64 S8x131072x64 where
  lhsContracting := [2]
  rhsContracting := [2]
  lhsNonContracting := [1]
  rhsNonContracting := [1]
  lhsBatch := [0]
  rhsBatch := [0]
  wf := dot_S8x131072x64_S8x64x64_S8x131072x64_2_2_1_1_0_0_wf

class Facts : Prop extends Facts₀ where

variable [Facts]
-- ==== Proof.PairedRows.lean ====
/-
  Two rows in one: the packed form of a per-sample matrix product, and why it is the plain one.

  The plain result is  out[b, n, o] = Σ_i x[b, n, i] · w[b, o, i] + bias[o]   (i over 64 channels).
  The packed computation views x[b] as 65536 rows of 128 numbers, row r holding rows 2r and 2r+1 of x[b] side by
  side, multiplies each such row by the 128 × 128 block-diagonal matrix with w[b]ᵀ in both diagonal blocks and zeros
  elsewhere, and adds the bias written twice. Entry (r, o) of the left half is then the plain result at row 2r, and
  entry (r, 64 + o) of the right half the plain result at row 2r + 1: the sum over 128 positions splits into its two
  halves, one half is the plain sum, and every term of the other half has a zero factor. On the extended reals a
  product with the factor 0 is 0 whatever the other factor, and 0 is neutral for +, so no finiteness is used.
-/
import Idealize.ShloMosaic.PureOps.Ideal
import Idealize.ShloMosaic.Lib.ValueIdx

noncomputable section

namespace Cert.PairedRows

open Idealize.ShloMosaic Idealize.ShloMosaic.ValueIdx

/-- Position `k` of the left half of a 128-wide row. -/
abbrev lo (k : Fin 64) : Fin 128 := ⟨k.val, by omega⟩
/-- Position `k` of the right half of a 128-wide row. -/
abbrev hi (k : Fin 64) : Fin 128 := ⟨64 + k.val, by omega⟩
/-- The first of the two rows packed into row `r`. -/
abbrev even (r : Fin 65536) : Fin 131072 := ⟨2 * r.val, by omega⟩
/-- The second of the two rows packed into row `r`. -/
abbrev odd (r : Fin 65536) : Fin 131072 := ⟨2 * r.val + 1, by omega⟩

/-- A sum over the 128 positions of a row is the sum over its left half plus the sum over its right half. -/
theorem sum_halves {M : Type*} [AddCommMonoid M] (f : Fin 128 → M) :
    ∑ k : Fin 128, f k = ∑ k : Fin 64, f (lo k) + ∑ k : Fin 64, f (hi k) :=
  Fin.sum_univ_add (a := 64) (b := 64) f

/-- The plain result: each row of `x[b]` against each row of `w[b]`, plus the bias of the output channel. -/
def conv (x : (⟨3, ![8, 131072, 64]⟩ : Shape).Idx → EReal) (w : (⟨3, ![8, 64, 64]⟩ : Shape).Idx → EReal)
    (bias : (⟨1, ![64]⟩ : Shape).Idx → EReal) : (⟨3, ![8, 131072, 64]⟩ : Shape).Idx → EReal :=
  fun i => (∑ k : Fin 64, x (ix3 (i 0) (i 1) k) * w (ix3 (i 0) (i 2) k)) + bias (ix1 (i 2))

/-- The packed result: each 128-wide row of `x2[b]` against each column of `w2[b]`, plus the one row `b2`. -/
def packed (x2 : (⟨3, ![8, 65536, 128]⟩ : Shape).Idx → EReal) (w2 : (⟨3, ![8, 128, 128]⟩ : Shape).Idx → EReal)
    (b2 : (⟨2, ![1, 128]⟩ : Shape).Idx → EReal) : (⟨3, ![8, 65536, 128]⟩ : Shape).Idx → EReal :=
  fun j => (∑ k : Fin 128, x2 (ix3 (j 0) (j 1) k) * w2 (ix3 (j 0) k (j 2))) + b2 (ix2 (0 : Fin 1) (j 2))

variable (x : (⟨3, ![8, 131072, 64]⟩ : Shape).Idx → EReal) (w : (⟨3, ![8, 64, 64]⟩ : Shape).Idx → EReal)
  (bias : (⟨1, ![64]⟩ : Shape).Idx → EReal)
  (x2 : (⟨3, ![8, 65536, 128]⟩ : Shape).Idx → EReal) (w2 : (⟨3, ![8, 128, 128]⟩ : Shape).Idx → EReal)
  (b2 : (⟨2, ![1, 128]⟩ : Shape).Idx → EReal)

/-- The left half of packed row `r` is the plain result at row `2r`: the left half of the sum is the plain sum
    (the upper left block of `w2[b]` is `w[b]ᵀ`), the right half vanishes (the lower left block is zero). -/
theorem packed_even
    (hx_lo : ∀ b r k, x2 (ix3 b r (lo k)) = x (ix3 b (even r) k))
    (hw_ll : ∀ b k o, w2 (ix3 b (lo k) (lo o)) = w (ix3 b o k))
    (hw_hl : ∀ b k o, w2 (ix3 b (hi k) (lo o)) = 0)
    (hb_lo : ∀ o, b2 (ix2 (0 : Fin 1) (lo o)) = bias (ix1 o))
    (b : Fin 8) (r : Fin 65536) (o : Fin 64) :
    packed x2 w2 b2 (ix3 b r (lo o)) = conv x w bias (ix3 b (even r) o) := by
  show (∑ k : Fin 128, x2 (ix3 b r k) * w2 (ix3 b k (lo o))) + b2 (ix2 (0 : Fin 1) (lo o))
    = (∑ k : Fin 64, x (ix3 b (even r) k) * w (ix3 b o k)) + bias (ix1 o)
  rw [sum_halves, hb_lo]
  simp only [hx_lo, hw_ll, hw_hl, mul_zero, Finset.sum_const_zero, add_zero]

/-- The right half of packed row `r` is the plain result at row `2r + 1`: the left half of the sum vanishes (the
    upper right block of `w2[b]` is zero), the right half is the plain sum (the lower right block is `w[b]ᵀ`). -/
theorem packed_odd
    (hx_hi : ∀ b r k, x2 (ix3 b r (hi k)) = x (ix3 b (odd r) k))
    (hw_lh : ∀ b k o, w2 (ix3 b (lo k) (hi o)) = 0)
    (hw_hh : ∀ b k o, w2 (ix3 b (hi k) (hi o)) = w (ix3 b o k))
    (hb_hi : ∀ o, b2 (ix2 (0 : Fin 1) (hi o)) = bias (ix1 o))
    (b : Fin 8) (r : Fin 65536) (o : Fin 64) :
    packed x2 w2 b2 (ix3 b r (hi o)) = conv x w bias (ix3 b (odd r) o) := by
  show (∑ k : Fin 128, x2 (ix3 b r k) * w2 (ix3 b k (hi o))) + b2 (ix2 (0 : Fin 1) (hi o))
    = (∑ k : Fin 64, x (ix3 b (odd r) k) * w (ix3 b o k)) + bias (ix1 o)
  rw [sum_halves, hb_hi]
  simp only [hx_hi, hw_lh, hw_hh, mul_zero, Finset.sum_const_zero, zero_add]

end Cert.PairedRows

end
-- ==== Proof.ReferenceProduct.lean ====
/-
  The reference, read index by index: its last stage is the plain per-sample product plus bias
  (`Cert.PairedRows.conv`) of x, of the modulated and demodulated weight (the stage the reference names its 23rd
  value, a function of style, weight, mod_weight and mod_bias alone) and of the bias.
-/
import proofs.«119926_j34445637714446_2_alg».proof.Proof.Gen.ReferenceIdeal.Read
import proofs.«119926_j34445637714446_2_alg».proof.Proof.PairedRows

noncomputable section

namespace Cert.ReferenceIdeal.Product

open Cert.ReferenceIdeal Cert.ReferenceIdeal.Gen Cert.ReferenceIdeal.Read
open Idealize.ShloMosaic Idealize.ShloMosaic.ValueIdx Cert.PairedRows

/-- The reference's result at (b, n, o) is Σ_i x[b, n, i] · w[b, o, i] + bias[o]: its batched contraction pairs the last
    axis of x with the last axis of the weight, and the bias is broadcast along the first two axes. -/
theorem reference_eq (x0 : (⟨S8x131072x64, .f32⟩ : BufTy).Contents (Elt Ideal)) (x1 : (⟨S8x256, .f32⟩ : BufTy).Contents (Elt Ideal))
    (x2 : (⟨S64x64, .f32⟩ : BufTy).Contents (Elt Ideal)) (x3 : (⟨S64, .f32⟩ : BufTy).Contents (Elt Ideal))
    (x4 : (⟨S64x256, .f32⟩ : BufTy).Contents (Elt Ideal)) (x5 : (⟨S64, .f32⟩ : BufTy).Contents (Elt Ideal)) :
    val_main_v27 (F := Ideal) x0 x1 x2 x3 x4 x5 = conv x0 (val_main_v23 (F := Ideal) x1 x2 x4 x5) x3 := by
  funext i
  rw [val_main_v27_apply, val_main_v24_apply, val_main_v26_apply, val_main_v25_apply]
  have el : ∀ k, lidx_main_v24 i k = ix3 (i 0) (i 1) k := fun k => funext fun a => by
    match a with
    | ⟨0, _⟩ => rfl
    | ⟨1, _⟩ => rfl
    | ⟨2, _⟩ => rfl
  have er : ∀ k, ridx_main_v24 i k = ix3 (i 0) (i 2) k := fun k => funext fun a => by
    match a with
    | ⟨0, _⟩ => rfl
    | ⟨1, _⟩ => rfl
    | ⟨2, _⟩ => rfl
  have eb : idx_main_v25 (idx_main_v26 i) = ix1 (i 2) := funext fun a => by
    match a with
    | ⟨0, _⟩ => rfl
  simp only [el, er, eb]
  rfl

end Cert.ReferenceIdeal.Product

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.BodyProduct.lean ====
/-
  What the kernel body computes, entry by entry: from a block of 16384 packed rows of x2[b], the 128 × 128 matrix
  w2[b] and the one bias row, entry (r, c) of what it stores is  Σ_k rows(r, k) · mat(k, c) + bias(c),  k over the
  128 positions of a row. The leading unit axis of each block is dropped before the product and put back after it.
-/
import proofs.«119926_j34445637714446_2_alg».proof.Proof.Gen.KernelIdeal.Skeleton
import proofs.«119926_j34445637714446_2_alg».proof.Proof.LibMatmulRows
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The product's left operand is read in the output entry's row. -/
theorem lhs_row (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl

/-- The product's right operand is read in the output entry's column. -/
theorem rhs_col (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- Entry (r, c) of the stored block: the row of the first block against the column of the matrix, plus the bias row
    at the column. -/
theorem body_apply (x0 : Vec Ideal S1x16384x128 .f32) (x1 : Vec Ideal S1x128x128 .f32) (x2 : Vec Ideal S1x128 .f32)
    (u : Fin 1) (r : Fin 16384) (c : Fin 128) :
    k0_pay1 (F := Ideal) x0 x1 x2 (ix3 u r c)
      = (∑ k : Fin 128, x0 (ix3 (0 : Fin 1) r k) * x1 (ix3 (0 : Fin 1) k c)) + x2 (ix2 (0 : Fin 1) c) := by
  unfold k0_pay1
  refine (shapeCast_ab_1ab_apply _ _ u r c).trans ?_
  refine (addf_apply _ _ _).trans ?_
  refine congrArg₂ (· + ·) ?_ ?_
  · refine (MatmulRows.matmul_zero_apply (M := 16384) (K := 128) (N := 128) dot_S16384x128_S128x128_S16384x128_1_0_0_1_n_n (some .fp32) rfl rfl rfl rfl
      lhs_row rhs_col _ _ (ix2 r c)).trans ?_
    refine Finset.sum_congr rfl fun k _ => ?_
    exact congrArg₂ (· * ·) (shapeCast_1ab_ab_apply _ _ r k) (shapeCast_1ab_ab_apply _ _ k c)
  · refine (broadcastTo_1b_ab_apply _ _ r c).trans ?_
    exact congrFun (shapeCast_self _ _) _

end Cert.KernelIdeal.Body

end
-- ==== Proof.BlocksToArray.lean ====
/-
  From blocks to the array. The grid has 8 × 4 points; point (b, n) reads rows 16384·n … 16384·n + 16383 of the packed
  x2[b], all of the matrix w2[b] and the one bias row, and writes the same rows of the packed output of sample b. What
  it writes is that block of ONE array — the packed product of the three arrays the region finds — so, the 32 blocks
  tiling the output array, the array ends as that product.
-/
import proofs.«119926_j34445637714446_2_alg».proof.Proof.Gen.KernelIdeal.Frame
import proofs.«119926_j34445637714446_2_alg».proof.Proof.BodyProduct
import proofs.«119926_j34445637714446_2_alg».proof.Proof.PairedRows
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The packed product of the three arrays as the region finds them. -/
abbrev product (c : Dev nD) : S8x65536x128.Idx → EReal :=
  Cert.PairedRows.packed (V m c main_v31 : S8x65536x128.Idx → EReal) (V m c main_v28 : S8x128x128.Idx → EReal)
    (V m c main_v30 : S1x128.Idx → EReal)

/-- The printed index maps over the 32 points: the rows window moves with the output window, the matrix window follows
    the sample alone, the bias window stays. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (2 : Fin 3) = 0 ∧ win0_3.index t (0 : Fin 3) ≤ 7 ∧ win0_3.index t (1 : Fin 3) ≤ 3 :=
  (by decide +kernel : ∀ t : Fin grid0.N, _)

/-- Every (sample, row block) pair is some point's. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- The rows block at a point: rows of the packed x2 of the point's sample. -/
theorem rows_apply (c : Dev nD) (t : Fin cfg0.N) (u : Fin 1) (r : Fin 16384) (k : Fin 128) (b : Fin 8) (R : Fin 65536)
    (hb : b.val = win0_3.index t (0 : Fin 3)) (hR : R.val = win0_3.index t (1 : Fin 3) * 16384 + r.val) :
    (iblk m c 0 t : S1x16384x128.Idx → EReal) (ix3 u r k) = (V m c main_v31 : S8x65536x128.Idx → EReal) (ix3 b R k) := by
  obtain ⟨e0, e1, e2, -⟩ := idx_facts t
  unfold iblk
  rw [View.read_apply]
  show V m c main_v31 _ = V m c main_v31 _
  congr 1
  funext a
  apply Fin.ext
  have hu : u.val = 0 := by omega
  match a with
  | ⟨0, _⟩ => show win0_0.index t (0 : Fin 3) * 1 + 1 * u.val = b.val; omega
  | ⟨1, _⟩ => show win0_0.index t (1 : Fin 3) * 16384 + 1 * r.val = R.val; omega
  | ⟨2, _⟩ => show win0_0.index t (2 : Fin 3) * 128 + 1 * k.val = k.val; omega

/-- The matrix block at a point: the whole 128 × 128 matrix of the point's sample. -/
theorem mat_apply (c : Dev nD) (t : Fin cfg0.N) (u : Fin 1) (k o : Fin 128) (b : Fin 8)
    (hb : b.val = win0_3.index t (0 : Fin 3)) :
    (iblk m c 1 t : S1x128x128.Idx → EReal) (ix3 u k o) = (V m c main_v28 : S8x128x128.Idx → EReal) (ix3 b k o) := by
  obtain ⟨-, -, -, e0, e1, e2, -⟩ := idx_facts t
  unfold iblk
  rw [View.read_apply]
  show V m c main_v28 _ = V m c main_v28 _
  congr 1
  funext a
  apply Fin.ext
  have hu : u.val = 0 := by omega
  match a with
  | ⟨0, _⟩ => show win0_1.index t (0 : Fin 3) * 1 + 1 * u.val = b.val; omega
  | ⟨1, _⟩ => show win0_1.index t (1 : Fin 3) * 128 + 1 * k.val = k.val; omega
  | ⟨2, _⟩ => show win0_1.index t (2 : Fin 3) * 128 + 1 * o.val = o.val; omega

/-- The bias block at a point: the one row. -/
theorem bias_apply (c : Dev nD) (t : Fin cfg0.N) (u : Fin 1) (o : Fin 128) :
    (iblk m c 2 t : S1x128.Idx → EReal) (ix2 u o) = (V m c main_v30 : S1x128.Idx → EReal) (ix2 (0 : Fin 1) o) := by
  obtain ⟨-, -, -, -, -, -, e0, e1, -⟩ := idx_facts t
  unfold iblk
  rw [View.read_apply]
  show V m c main_v30 _ = V m c main_v30 _
  congr 1
  funext a
  apply Fin.ext
  have hu : u.val = 0 := by omega
  match a with
  | ⟨0, _⟩ => show win0_2.index t (0 : Fin 2) * 1 + 1 * u.val = 0; omega
  | ⟨1, _⟩ => show win0_2.index t (1 : Fin 2) * 128 + 1 * o.val = o.val; omega

/-- What point `t` writes back is block `t` of the packed product. -/
theorem flushed_eq (c : Dev nD) (t : Fin cfg0.N) :
    (dats m 0 c).flushed 3 t = ((cfg0.win 3).blk t).view.read (Elt Ideal) (product m c) := by
  show (cfg0.win 3).cut (grid0.coords t) ((dats m 0 c).after 3 t) = _
  rw [after0_3]
  unfold out0_3
  rw [View.canon_unit_zero hz3]
  simp only [View.ld_unit_zero (S := S1x16384x128) hz3, View.ld_unit_zero (S := S1x128x128) hz3, View.ld_unit_zero (S := S1x128) hz2]
  obtain ⟨-, -, -, -, -, -, -, -, e2, l0, l1⟩ := idx_facts t
  funext j
  obtain ⟨u, r, o, rfl⟩ : ∃ (u : Fin 1) (r : Fin 16384) (o : Fin 128), j = ix3 u r o := ⟨j 0, j 1, j 2, eq_ix3 j⟩
  have hu : u.val = 0 := by omega
  have he : ((cfg0.win 3).blk t).view.emb (ix3 u r o)
      = (ix3 (⟨win0_3.index t (0 : Fin 3), by omega⟩ : Fin 8) (⟨win0_3.index t (1 : Fin 3) * 16384 + r.val, by omega⟩ : Fin 65536) o : S8x65536x128.Idx) := by
    funext a
    apply Fin.ext
    match a with
    | ⟨0, _⟩ => show win0_3.index t (0 : Fin 3) * 1 + 1 * u.val = win0_3.index t (0 : Fin 3); omega
    | ⟨1, _⟩ => show win0_3.index t (1 : Fin 3) * 16384 + 1 * r.val = win0_3.index t (1 : Fin 3) * 16384 + r.val; omega
    | ⟨2, _⟩ => show win0_3.index t (2 : Fin 3) * 128 + 1 * o.val = o.val; omega
  show k0_pay1 (F := Ideal) (iblk m c 0 t) (iblk m c 1 t) (iblk m c 2 t) (ix3 u r o) = product m c (((cfg0.win 3).blk t).view.emb (ix3 u r o))
  rw [he]
  refine (Body.body_apply (iblk m c 0 t) (iblk m c 1 t) (iblk m c 2 t) u r o).trans ?_
  refine congrArg₂ (· + ·) (Finset.sum_congr rfl fun k _ => congrArg₂ (· * ·) ?_ ?_) ?_
  · exact rows_apply m c t 0 r k _ _ rfl rfl
  · exact mat_apply m c t 0 k o _ rfl
  · exact bias_apply m c t 0 o

/-- An index of the output array is in point `t`'s block iff each coordinate is in the block's range on its axis. -/
theorem mem_blk (t : Fin cfg0.N) (i : S8x65536x128.Idx) :
    i ∈ ((cfg0.win 3).blk t).view.set ↔ ∀ a : Fin 3, win0_3.index t a * S1x16384x128.size a ≤ (i a).val ∧ (i a).val < win0_3.index t a * S1x16384x128.size a + S1x16384x128.size a := by
  show i ∈ ((View.whole main_v32).slice (win0_3.rect t)).set ↔ _
  rw [View.set_slice_whole, Rect.mem_set_unit]
  exact Iff.rfl

/-- The 32 blocks cover the output array: row R of sample b is in the block of point (b, R / 16384). -/
theorem cover (i : S8x65536x128.Idx) : ∃ t : Fin cfg0.N, (cfg0.win 3).flush t = true ∧ i ∈ ((cfg0.win 3).blk t).view.set := by
  have hi0 : (i 0).val < 8 := (i 0).isLt
  have hi1 : (i 1).val < 65536 := (i 1).isLt
  have hi2 : (i 2).val < 128 := (i 2).isLt
  obtain ⟨t, ht⟩ := idx_onto ⟨(i 0).val, hi0⟩ ⟨(i 1).val / 16384, by omega⟩
  have q0 : win0_3.index t (0 : Fin 3) = (i 0).val := congrFun ht 0
  have q1 : win0_3.index t (1 : Fin 3) = (i 1).val / 16384 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 16384 ≤ (i 1).val ∧ (i 1).val < win0_3.index t (1 : Fin 3) * 16384 + 16384; omega
  | ⟨2, _⟩ => show win0_3.index t (2 : Fin 3) * 128 ≤ (i 2).val ∧ (i 2).val < win0_3.index t (2 : Fin 3) * 128 + 128; omega

/-- The output array after the region is the packed product. -/
theorem final (c : Dev nD) : (dats m 0 c).arrAt 3 cfg0.N = product m c :=
  (dats m 0 c).arrAt_eq_of_cover 3 (product m c) (fun t _ => flushed_eq m c t) (cover)

end Cert.KernelIdeal.Blocks

end
-- ==== Proof.PackedLayout.lean ====
/-
  The packed operands as layouts of the plain ones, read entry by entry.

  * x[b] of 131072 rows by 64, reshaped to 65536 rows by 128: row r holds row 2r in its left half and row 2r + 1 in
    its right half (both orders are row-major, and 128 = 2 · 64); the reshape back reads the same entries.
  * the bias written twice and given a leading unit axis: both halves of the one row are the bias.
  * the 128 × 128 matrix built from w[b] (64 × 64) by transposing it, setting zeros beside it both ways round and
    stacking the two 64 × 128 strips: its upper left and lower right blocks are w[b]ᵀ, the other two blocks are zero.
-/
import Idealize.ShloMosaic.Lib.Pipeline.Value
import Idealize.ShloMosaic.Lib.ValueLayout
import Idealize.ShloMosaic.PureOps.Ideal.Laws
import proofs.«119926_j34445637714446_2_alg».proof.Proof.PairedRows

noncomputable section

namespace Cert.PairedRows

open Idealize.ShloMosaic Idealize.ShloMosaic.ValueIdx

abbrev SX : Shape := ⟨3, ![8, 131072, 64]⟩
abbrev SX2 : Shape := ⟨3, ![8, 65536, 128]⟩
abbrev SB : Shape := ⟨1, ![64]⟩
abbrev SB1 : Shape := ⟨1, ![128]⟩
abbrev SB2 : Shape := ⟨2, ![1, 128]⟩
abbrev SW : Shape := ⟨3, ![8, 64, 64]⟩
abbrev SH : Shape := ⟨3, ![8, 64, 128]⟩
abbrev SW2 : Shape := ⟨3, ![8, 128, 128]⟩
abbrev S0 : Shape := ⟨0, ![]⟩

section Rows
variable {α : Type}

/-- The left half of packed row `r` is row `2r`. -/
theorem pack_lo (x : SX.Idx → α) (h : SX.ShapeCasts SX2) (b : Fin 8) (r : Fin 65536) (k : Fin 64) :
    shapeCast SX2 x h (ix3 b r (lo k)) = x (ix3 b (even r) k) :=
  shapeCast_apply x h _ _ (by
    rw [Shape.rowMajor_val_three, Shape.rowMajor_val_three]
    show (b.val * 131072 + 2 * r.val) * 64 + k.val = (b.val * 65536 + r.val) * 128 + k.val
    omega)

/-- The right half of packed row `r` is row `2r + 1`. -/
theorem pack_hi (x : SX.Idx → α) (h : SX.ShapeCasts SX2) (b : Fin 8) (r : Fin 65536) (k : Fin 64) :
    shapeCast SX2 x h (ix3 b r (hi k)) = x (ix3 b (odd r) k) :=
  shapeCast_apply x h _ _ (by
    rw [Shape.rowMajor_val_three, Shape.rowMajor_val_three]
    show (b.val * 131072 + (2 * r.val + 1)) * 64 + k.val = (b.val * 65536 + r.val) * 128 + (64 + k.val)
    omega)

/-- Unpacked, row `2r` is the left half of packed row `r`. -/
theorem unpack_even (y : SX2.Idx → α) (h : SX2.ShapeCasts SX) (b : Fin 8) (r : Fin 65536) (o : Fin 64) :
    shapeCast SX y h (ix3 b (even r) o) = y (ix3 b r (lo o)) :=
  shapeCast_apply y h _ _ (by
    rw [Shape.rowMajor_val_three, Shape.rowMajor_val_three]
    show (b.val * 65536 + r.val) * 128 + o.val = (b.val * 131072 + 2 * r.val) * 64 + o.val
    omega)

/-- Unpacked, row `2r + 1` is the right half of packed row `r`. -/
theorem unpack_odd (y : SX2.Idx → α) (h : SX2.ShapeCasts SX) (b : Fin 8) (r : Fin 65536) (o : Fin 64) :
    shapeCast SX y h (ix3 b (odd r) o) = y (ix3 b r (hi o)) :=
  shapeCast_apply y h _ _ (by
    rw [Shape.rowMajor_val_three, Shape.rowMajor_val_three]
    show (b.val * 65536 + r.val) * 128 + (64 + o.val) = (b.val * 131072 + (2 * r.val + 1)) * 64 + o.val
    omega)

/-- The bias written twice, as one row of 128. -/
def twice (bias : SB.Idx → α) (hc : Shape.Concatenates [SB, SB] SB1 0) (hs : SB1.ShapeCasts SB2) : SB2.Idx → α :=
  shapeCast SB2 (concatenate SB1 0 [⟨SB, bias⟩, ⟨SB, bias⟩] hc) hs

theorem twice_lo (bias : SB.Idx → α) (hc : Shape.Concatenates [SB, SB] SB1 0) (hs : SB1.ShapeCasts SB2) (o : Fin 64) :
    twice bias hc hs (ix2 (0 : Fin 1) (lo o)) = bias (ix1 o) := by
  unfold twice
  refine (shapeCast_a_1a_apply _ hs 0 (lo o)).trans ?_
  exact concatenate_pair_apply_left (0 : Fin SB1.rank) bias bias hc (ix1 (lo o)) rfl (ix1 o)
    (fun a => match a with | ⟨0, _⟩ => rfl)

theorem twice_hi (bias : SB.Idx → α) (hc : Shape.Concatenates [SB, SB] SB1 0) (hs : SB1.ShapeCasts SB2) (o : Fin 64) :
    twice bias hc hs (ix2 (0 : Fin 1) (hi o)) = bias (ix1 o) := by
  unfold twice
  refine (shapeCast_a_1a_apply _ hs 0 (hi o)).trans ?_
  exact concatenate_pair_apply_right (0 : Fin SB1.rank) bias bias hc (ix1 (hi o)) rfl rfl (ix1 o)
    (fun a => match a with | ⟨0, _⟩ => fun h => absurd rfl h)
    (by show o.val + 64 = 64 + o.val; omega)

end Rows

/-- A stack of 64 × 64 zero matrices. -/
def zeros (hb : S0.BroadcastsInDim SW (![] : Fin 0 → Fin SW.rank)) : SW.Idx → EReal :=
  broadcastInDim SW ![] hb (constant (F := Ideal) S0 .f32 0x00000000#32)

theorem zeros_apply (hb : S0.BroadcastsInDim SW (![] : Fin 0 → Fin SW.rank)) (j : SW.Idx) : zeros hb j = 0 := by
  unfold zeros
  refine (broadcastInDim_apply _ hb _ j ix0 (fun a => a.elim0)).trans ?_
  exact Ideal.ofBits_zero_f32

/-- The block-diagonal matrices: per sample, `w[b]ᵀ` with zeros to its right, over zeros with `w[b]ᵀ` to their right. -/
def blockDiag (w : SW.Idx → EReal) (ht : SW.Transposes [0, 2, 1] SW) (hb : S0.BroadcastsInDim SW (![] : Fin 0 → Fin SW.rank))
    (h2 : Shape.Concatenates [SW, SW] SH 2) (h1 : Shape.Concatenates [SH, SH] SW2 1) : SW2.Idx → EReal :=
  concatenate SW2 1
    [⟨SH, concatenate SH 2 [⟨SW, transpose SW [0, 2, 1] w ht⟩, ⟨SW, zeros hb⟩] h2⟩,
     ⟨SH, concatenate SH 2 [⟨SW, zeros hb⟩, ⟨SW, transpose SW [0, 2, 1] w ht⟩] h2⟩] h1

variable (w : SW.Idx → EReal) (ht : SW.Transposes [0, 2, 1] SW) (hb : S0.BroadcastsInDim SW (![] : Fin 0 → Fin SW.rank))
  (h2 : Shape.Concatenates [SW, SW] SH 2) (h1 : Shape.Concatenates [SH, SH] SW2 1)

/-- Upper left block: `w[b]ᵀ`. -/
theorem blockDiag_ll (b : Fin 8) (k o : Fin 64) : blockDiag w ht hb h2 h1 (ix3 b (lo k) (lo o)) = w (ix3 b o k) := by
  unfold blockDiag
  refine (concatenate_pair_apply_left (1 : Fin SW2.rank) _ _ h1 (ix3 b (lo k) (lo o)) rfl (ix3 b k (lo o))
    (fun a => match a with | ⟨0, _⟩ => rfl | ⟨1, _⟩ => rfl | ⟨2, _⟩ => rfl)).trans ?_
  refine (concatenate_pair_apply_left (2 : Fin SH.rank) _ _ h2 (ix3 b k (lo o)) rfl (ix3 b k o)
    (fun a => match a with | ⟨0, _⟩ => rfl | ⟨1, _⟩ => rfl | ⟨2, _⟩ => rfl)).trans ?_
  exact transpose_ix3_021_apply w ht b k o

/-- Upper right block: zero. -/
theorem blockDiag_lh (b : Fin 8) (k o : Fin 64) : blockDiag w ht hb h2 h1 (ix3 b (lo k) (hi o)) = 0 := by
  unfold blockDiag
  refine (concatenate_pair_apply_left (1 : Fin SW2.rank) _ _ h1 (ix3 b (lo k) (hi o)) rfl (ix3 b k (hi o))
    (fun a => match a with | ⟨0, _⟩ => rfl | ⟨1, _⟩ => rfl | ⟨2, _⟩ => rfl)).trans ?_
  refine (concatenate_pair_apply_right (2 : Fin SH.rank) _ _ h2 (ix3 b k (hi o)) rfl rfl (ix3 b k o)
    (fun a => match a with | ⟨0, _⟩ => fun _ => rfl | ⟨1, _⟩ => fun _ => rfl | ⟨2, _⟩ => fun h => absurd rfl h)
    (by show o.val + 64 = 64 + o.val; omega)).trans ?_
  exact zeros_apply hb _

/-- Lower left block: zero. -/
theorem blockDiag_hl (b : Fin 8) (k o : Fin 64) : blockDiag w ht hb h2 h1 (ix3 b (hi k) (lo o)) = 0 := by
  unfold blockDiag
  refine (concatenate_pair_apply_right (1 : Fin SW2.rank) _ _ h1 (ix3 b (hi k) (lo o)) rfl rfl (ix3 b k (lo o))
    (fun a => match a with | ⟨0, _⟩ => fun _ => rfl | ⟨1, _⟩ => fun h => absurd rfl h | ⟨2, _⟩ => fun _ => rfl)
    (by show k.val + 64 = 64 + k.val; omega)).trans ?_
  refine (concatenate_pair_apply_left (2 : Fin SH.rank) _ _ h2 (ix3 b k (lo o)) rfl (ix3 b k o)
    (fun a => match a with | ⟨0, _⟩ => rfl | ⟨1, _⟩ => rfl | ⟨2, _⟩ => rfl)).trans ?_
  exact zeros_apply hb _

/-- Lower right block: `w[b]ᵀ`. -/
theorem blockDiag_hh (b : Fin 8) (k o : Fin 64) : blockDiag w ht hb h2 h1 (ix3 b (hi k) (hi o)) = w (ix3 b o k) := by
  unfold blockDiag
  refine (concatenate_pair_apply_right (1 : Fin SW2.rank) _ _ h1 (ix3 b (hi k) (hi o)) rfl rfl (ix3 b k (hi o))
    (fun a => match a with | ⟨0, _⟩ => fun _ => rfl | ⟨1, _⟩ => fun h => absurd rfl h | ⟨2, _⟩ => fun _ => rfl)
    (by show k.val + 64 = 64 + k.val; omega)).trans ?_
  refine (concatenate_pair_apply_right (2 : Fin SH.rank) _ _ h2 (ix3 b k (hi o)) rfl rfl (ix3 b k o)
    (fun a => match a with | ⟨0, _⟩ => fun _ => rfl | ⟨1, _⟩ => fun _ => rfl | ⟨2, _⟩ => fun h => absurd rfl h)
    (by show o.val + 64 = 64 + o.val; omega)).trans ?_
  exact transpose_ix3_021_apply w ht b k o

end Cert.PairedRows

end
-- ==== Proof.StagedArrays.lean ====
/-
  The three arrays the region finds, as layouts of the arguments: x2 is x reshaped (two rows per row), the bias row is
  the bias written twice, and the matrix is the block-diagonal arrangement of the modulated and demodulated weight —
  the very stage the reference computes from style, weight, mod_weight and mod_bias, by the same operations in the same
  order with the same constants, so it is named by the reference's stage and never opened.
-/
import proofs.«119926_j34445637714446_2_alg».proof.Proof.Gen.KernelIdeal.Frame
import proofs.«119926_j34445637714446_2_alg».proof.Proof.Gen.ReferenceIdeal.Read
import proofs.«119926_j34445637714446_2_alg».proof.Proof.PackedLayout
import Idealize.ShloMosaic.Lib.StableHlo.Run

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx
open Cert.PairedRows

variable (m : (ℓ : Loc nD τ sig) → Buf (Elt Ideal) ℓ)

/-- The modulated and demodulated weight w[b, o, i], as a function of the four small arguments. -/
abbrev weight (c : Dev nD) : S8x64x64.Idx → EReal :=
  Cert.ReferenceIdeal.Read.val_main_v23 (F := Ideal) (m ((c : Thread nD τ).loc main_arg1)) (m ((c : Thread nD τ).loc main_arg2))
    (m ((c : Thread nD τ).loc main_arg4)) (m ((c : Thread nD τ).loc main_arg5))

theorem staged_x (c : Dev nD) : (V m c main_v31 : S8x65536x128.Idx → EReal)
    = shapeCast S8x65536x128 (m ((c : Thread nD τ).loc main_arg0) : S8x131072x64.Idx → EReal) shapeCasts_S8x131072x64_S8x65536x128 := by
  show StableHlo.after hostOps0 (fun b => m (c, b)) (Proc.devRef .tc main_v31) = _
  after_results
  rfl

theorem staged_bias (c : Dev nD) : (V m c main_v30 : S1x128.Idx → EReal)
    = twice (m ((c : Thread nD τ).loc main_arg3) : S64.Idx → EReal) concatenates_S64_S64_S128_d0 shapeCasts_S128_S1x128 := by
  show StableHlo.after hostOps0 (fun b => m (c, b)) (Proc.devRef .tc main_v30) = _
  after_results
  rfl

set_option maxHeartbeats 2000000 in
theorem staged_mat (c : Dev nD) : (V m c main_v28 : S8x128x128.Idx → EReal)
    = blockDiag (weight m c) transposes_S8x64x64_S8x64x64_0_2_1 bcast_S_S8x64x64
        concatenates_S8x64x64_S8x64x64_S8x64x128_d2 concatenates_S8x64x128_S8x64x128_S8x128x128_d1 := by
  show StableHlo.after hostOps0 (fun b => m (c, b)) (Proc.devRef .tc main_v28) = _
  after_results
  rfl

/-! The same, entry by entry. -/

theorem x_lo (c : Dev nD) (b : Fin 8) (r : Fin 65536) (k : Fin 64) :
    (V m c main_v31 : S8x65536x128.Idx → EReal) (ix3 b r (lo k)) = (m ((c : Thread nD τ).loc main_arg0) : S8x131072x64.Idx → EReal) (ix3 b (even r) k) := by
  rw [staged_x]; exact pack_lo _ _ b r k
theorem x_hi (c : Dev nD) (b : Fin 8) (r : Fin 65536) (k : Fin 64) :
    (V m c main_v31 : S8x65536x128.Idx → EReal) (ix3 b r (hi k)) = (m ((c : Thread nD τ).loc main_arg0) : S8x131072x64.Idx → EReal) (ix3 b (odd r) k) := by
  rw [staged_x]; exact pack_hi _ _ b r k

theorem bias_lo (c : Dev nD) (o : Fin 64) :
    (V m c main_v30 : S1x128.Idx → EReal) (ix2 (0 : Fin 1) (lo o)) = (m ((c : Thread nD τ).loc main_arg3) : S64.Idx → EReal) (ix1 o) := by
  rw [staged_bias]; exact twice_lo _ _ _ o
theorem bias_hi (c : Dev nD) (o : Fin 64) :
    (V m c main_v30 : S1x128.Idx → EReal) (ix2 (0 : Fin 1) (hi o)) = (m ((c : Thread nD τ).loc main_arg3) : S64.Idx → EReal) (ix1 o) := by
  rw [staged_bias]; exact twice_hi _ _ _ o

theorem mat_ll (c : Dev nD) (b : Fin 8) (k o : Fin 64) :
    (V m c main_v28 : S8x128x128.Idx → EReal) (ix3 b (lo k) (lo o)) = weight m c (ix3 b o k) := by
  rw [staged_mat]; exact blockDiag_ll _ _ _ _ _ b k o
theorem mat_lh (c : Dev nD) (b : Fin 8) (k o : Fin 64) :
    (V m c main_v28 : S8x128x128.Idx → EReal) (ix3 b (lo k) (hi o)) = (0 : EReal) := by
  rw [staged_mat]; exact blockDiag_lh _ _ _ _ _ b k o
theorem mat_hl (c : Dev nD) (b : Fin 8) (k o : Fin 64) :
    (V m c main_v28 : S8x128x128.Idx → EReal) (ix3 b (hi k) (lo o)) = (0 : EReal) := by
  rw [staged_mat]; exact blockDiag_hl _ _ _ _ _ b k o
theorem mat_hh (c : Dev nD) (b : Fin 8) (k o : Fin 64) :
    (V m c main_v28 : S8x128x128.Idx → EReal) (ix3 b (hi k) (hi o)) = weight m c (ix3 b o k) := by
  rw [staged_mat]; exact blockDiag_hh _ _ _ _ _ b k o

end Cert.KernelIdeal.Staged

end
-- ==== Proof.Result.lean ====
/-
  The kernel's result. After the region the program reshapes the packed output back to 131072 rows of 64 per sample;
  row 2r of the result is the left half of packed row r and row 2r + 1 its right half, and those are the plain
  per-sample product plus bias at these rows (`Cert.PairedRows.packed_even`, `packed_odd`, fed with the entries of the
  three arrays the region finds). So the program ends with  out[b, n, o] = Σ_i x[b, n, i] · w[b, o, i] + bias[o].
-/
import proofs.«119926_j34445637714446_2_alg».proof.Proof.Gen.KernelIdeal.Frame
import proofs.«119926_j34445637714446_2_alg».proof.Proof.BlocksToArray
import proofs.«119926_j34445637714446_2_alg».proof.Proof.StagedArrays
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx
open Cert.PairedRows

variable (m : (ℓ : Loc nD τ sig) → Buf (Elt Ideal) ℓ) (ρ : Dev nD → PrngReg)

/-- The plain product of x, the modulated and demodulated weight, and the bias. -/
abbrev result (c : Dev nD) : S8x131072x64.Idx → EReal :=
  conv (m ((c : Thread nD τ).loc main_arg0) : S8x131072x64.Idx → EReal) (Staged.weight m c)
    (m ((c : Thread nD τ).loc main_arg3) : S64.Idx → EReal)

/-- The left half of packed row `r` of the region's output is the plain result at row `2r`. -/
theorem product_even (c : Dev nD) (b : Fin 8) (r : Fin 65536) (o : Fin 64) :
    Blocks.product m c (ix3 b r (lo o)) = result m c (ix3 b (even r) o) :=
  packed_even _ _ _ _ _ _ (Staged.x_lo m c) (Staged.mat_ll m c) (Staged.mat_hl m c) (Staged.bias_lo m c) b r o

/-- The right half of packed row `r` of the region's output is the plain result at row `2r + 1`. -/
theorem product_odd (c : Dev nD) (b : Fin 8) (r : Fin 65536) (o : Fin 64) :
    Blocks.product m c (ix3 b r (hi o)) = result m c (ix3 b (odd r) o) :=
  packed_odd _ _ _ _ _ _ (Staged.x_hi m c) (Staged.mat_lh m c) (Staged.mat_hh m c) (Staged.bias_hi m c) b r o

/-- What the program's last line leaves: the region's output array, unpacked. -/
theorem tail_eq (c : Dev nD) :
    (Pipeline.afterTail₀ cfgs (dats m) 0 (V0 m) [hostOps1] c main_v33 : S8x131072x64.Idx → EReal)
      = shapeCast S8x131072x64 (Blocks.product m c) shapeCasts_S8x65536x128_S8x131072x64 := by
  have e : Pipeline.withArrays (cfgs 0).spec c (V0 m c) (fun w => (dats m 0 c).arrAt w (cfgs 0).N) (Proc.devRef .tc main_v32)
      = Blocks.product m c :=
    (Pipeline.withArrays_arr spec0 launch0.win.arr_inj c _ _ 3).trans (Blocks.final m c)
  unfold Pipeline.afterTail₀
  show StableHlo.after hostOps1 _ (Proc.devRef .tc main_v33) = _
  after_results
  funext i
  show shapeCast S8x131072x64 (Pipeline.withArrays (cfgs 0).spec c (V0 m c) (fun w => (dats m 0 c).arrAt w (cfgs 0).N) (Proc.devRef .tc main_v32))
    shapeCasts_S8x65536x128_S8x131072x64 i = _
  rw [e]

/-- The program's result array is the plain product plus bias. -/
theorem result_eq (c : Dev nD) :
    (Pipeline.afterTail₀ cfgs (dats m) 0 (V0 m) [hostOps1] c main_v33 : S8x131072x64.Idx → EReal) = result m c := by
  rw [tail_eq]
  funext i
  obtain ⟨b, n, o, rfl⟩ : ∃ (b : Fin 8) (n : Fin 131072) (o : Fin 64), i = ix3 b n o := ⟨i 0, i 1, i 2, eq_ix3 i⟩
  have hn := n.isLt
  obtain ⟨r, hr | hr⟩ := Nat.even_or_odd' n.val
  · have hr' : r < 65536 := by omega
    have e : n = even ⟨r, hr'⟩ := Fin.ext hr
    rw [e]
    exact (unpack_even _ _ b _ o).trans (product_even m c b _ o)
  · have hr' : r < 65536 := by omega
    have e : n = odd ⟨r, hr'⟩ := Fin.ext hr
    rw [e]
    exact (unpack_odd _ _ b _ o).trans (product_odd m c b _ o)

/-- The run, read: every weakly fair execution ends with the result array at the plain product plus bias and the
    arguments as launched. -/
theorem run : θ_run defs (onTc (τ := τ) (main (F := Ideal))) ⟨m, fun _ => 0, ρ⟩ fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      ((h c).2 main_v33 (Pipeline.mem_restRefs_of main_v33 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  A per-sample modulated 1 × 1 convolution,  out[b, n, o] = Σ_i x[b, n, i] · w[b, o, i] + bias[o],  where the weight
  w[b] is the given weight scaled, modulated by a style vector and demodulated (normalised per output channel).

  The reference computes w and then one batched contraction plus the broadcast bias. The kernel computes the same w by
  the same host operations with the same constants, then packs two consecutive rows of x[b] into one 128-wide row,
  builds the 128 × 128 block-diagonal matrix with w[b]ᵀ in both diagonal blocks, runs a 128-wide matrix product block
  by block over a grid of 8 samples × 4 row blocks, and unpacks. On the extended reals the two agree entry by entry:

  * the body stores, at (r, c), Σ_k rows(r, k) · mat(k, c) + bias(c) over the 128 positions (BodyProduct);
  * each point writes its block of ONE packed product of the arrays the region finds, and the 32 blocks tile the
    output, so the output array is that packed product (BlocksToArray);
  * those arrays are layouts of the arguments: x reshaped, the bias written twice, the weight transposed and set on
    the diagonal among zeros (StagedArrays, PackedLayout);
  * a sum over 128 positions is the sum of its halves; in each half-row of the output one half of the terms is the
    plain contraction and every term of the other half has the factor 0, and x · 0 = 0 and 0 + y = y hold for every
    extended real, so no finiteness of the inputs is used (PairedRows);
  * unpacked, rows 2r and 2r + 1 of the result are the two halves of packed row r (Result);
  * the reference's stages read index by index give the same expression (ReferenceProduct).

  The kernel as printed and its idealization differ by no rewrite, so the idealization is the program's own text.
-/
import proofs.«119926_j34445637714446_2_alg».proof.Defs
import proofs.«119926_j34445637714446_2_alg».proof.Proof.Gen.Kernel
import proofs.«119926_j34445637714446_2_alg».proof.Proof.Gen.Kernel.Skeleton
import proofs.«119926_j34445637714446_2_alg».proof.Proof.Gen.Kernel.Launch
import proofs.«119926_j34445637714446_2_alg».proof.Proof.Gen.Kernel.Points
import proofs.«119926_j34445637714446_2_alg».proof.Proof.Gen.Kernel.Frame
import proofs.«119926_j34445637714446_2_alg».proof.Proof.Gen.KernelIdeal
import proofs.«119926_j34445637714446_2_alg».proof.Proof.Gen.KernelIdeal.Skeleton
import proofs.«119926_j34445637714446_2_alg».proof.Proof.Gen.KernelIdeal.Launch
import proofs.«119926_j34445637714446_2_alg».proof.Proof.Gen.KernelIdeal.Points
import proofs.«119926_j34445637714446_2_alg».proof.Proof.Gen.KernelIdeal.Frame
import proofs.«119926_j34445637714446_2_alg».proof.Proof.Gen.ReferenceIdeal
import proofs.«119926_j34445637714446_2_alg».proof.Proof.Gen.Pre_finite_inputs
import proofs.«119926_j34445637714446_2_alg».proof.Proof.Gen.ReferenceIdeal.Run
import proofs.«119926_j34445637714446_2_alg».proof.Proof.Gen.ReferenceIdeal.Read
import proofs.«119926_j34445637714446_2_alg».proof.Proof.ReferenceProduct
import proofs.«119926_j34445637714446_2_alg».proof.Proof.Result
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The reference's run, its result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From arguments that agree, both programs end with  Σ_i x[b, n, i] · w[b, o, i] + bias[o]  at every (b, n, o). -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v27_eq _ _ _ _ _ _).trans (Cert.ReferenceIdeal.Product.reference_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
